-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S131072x128 : Shape := ⟨2, ![131072, 128]⟩
abbrev S1x1 : Shape := ⟨2, ![1, 1]⟩
abbrev S8192x128 : Shape := ⟨2, ![8192, 128]⟩
abbrev S1x8192x128 : Shape := ⟨3, ![1, 8192, 128]⟩
abbrev S1 : Shape := ⟨1, ![1]⟩
abbrev S1x1x1 : Shape := ⟨3, ![1, 1, 1]⟩
abbrev S_ : Shape := ⟨0, ![]⟩

abbrev nBuf : Space → Nat
  | .hbm => 15
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S131072x128, .f32⟩
  | .hbm, ⟨3, _⟩ => ⟨S131072x128, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x1, .f32⟩
  | .local _ .vmem, ⟨5, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S1x1_S1x1 : S1x1.ShapeCasts S1x1
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .i32 = 32 ∨ (Rect.block (s := S131072x128) S8192x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S16777216, .f32⟩
  | .hbm, ⟨3, _⟩ => ⟨S_, .f32⟩
  | .hbm, ⟨4, _⟩ => ⟨S16777216, .f32⟩
  | .hbm, ⟨5, _⟩ => ⟨S16777216, .i1⟩
  | .hbm, ⟨6, _⟩ => ⟨S_, .i32⟩
  | .hbm, ⟨7, _⟩ => ⟨S16777216, .i32⟩
  | .hbm, ⟨8, _⟩ => ⟨S16777216, .i1⟩
  | .hbm, ⟨9, _⟩ => ⟨S16777216, .i1⟩
  | .hbm, ⟨10, _⟩ => ⟨S16777216, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16777216, .f32⟩
  | .hbm, ⟨18, _⟩ => ⟨S16777216, .f32⟩
  | .hbm, ⟨19, _⟩ => ⟨S_, .f32⟩
  | .hbm, ⟨20, _⟩ => ⟨S16777216, .f32⟩
  | .hbm, ⟨21, _⟩ => ⟨S16777216, .f32⟩
  | .hbm, ⟨22, _⟩ => ⟨S_, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S16777216, .f32⟩
  | .hbm, ⟨27, _⟩ => ⟨S16777216, .f32⟩
  | .hbm, ⟨28, _⟩ => ⟨S16777216, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Pieces.lean ====
/-
  What each control case of the kernel body leaves in the two one-element accumulators, as a value.

  At the first grid point the body first stores zero into both accumulators and then adds the tile's two sums to
  what it reads back, so it leaves the tile's loss sum added to zero, and the tile's hit count added to zero.
  At every later point it adds the tile's two sums to what the point before left.
-/
import proofs.«160771_j46024869544057_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offset of a load or store of a whole buffer. -/
theorem hz : (![0, 0] : Fin 2 → Nat) = fun _ => 0 := funext fun a => by fin_cases a <;> rfl

/-- The tile's loss sum added to an accumulator value `acc`: the payload of the store into the first accumulator. -/
abbrev lossStep (x0 : Vec F S8192x128 .f32) (x1 : Vec F S8192x128 .i32) (acc : Vec F S1x1 .f32) : Vec F S1x1 .f32 :=
  k0_pay6 x0 x1 acc

/-- The tile's hit count added to an accumulator value `acc`: the payload of the store into the second accumulator. -/
abbrev hitStep (x0 : Vec F S8192x128 .f32) (x1 : Vec F S8192x128 .i32) (acc : Vec F S1x1 .f32) : Vec F S1x1 .f32 :=
  k0_pay1 (k0_pay7 acc) (k0_pay8 x0 x1)

/-- A later point leaves, in the first accumulator holding `xo2`, the tile's loss sum added to `xo2`. -/
theorem later_loss (c : Dev nD) (i : grid0.Coords) (a1 : Memref sig .tc .vmem S8192x128 .f32) (h1 : a1.IsWhole)
    (a2 : Memref sig .tc .vmem S8192x128 .i32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S8192x128 .f32) (x1 : Vec F S8192x128 .i32) (xo2 xo3 : Vec F S1x1 .f32) :
    out0_B_2 c i a1 h1 a2 h2 a3 h3 a4 h4 hc x0 x1 xo2 xo3 = lossStep x0 x1 xo2 := by
  unfold out0_B_2
  rw [View.read_writes_eq_canon _ _ _ (cover0_B_2 c i a1 h1 a2 h2 a3 h3 a4 h4 hc x0 x1 xo2 xo3)]
  unfold kernelRun0_B
  dsimp only
  rw [View.canon_unit_zero hz]
  simp only [View.readAt_eq_ld, h1.read_unread, h2.read_unread, h3.read_unread, View.ld_unit_zero (S := S8192x128) hz,
    View.ld_unit_zero (S := S1x1) hz]

/-- A later point leaves, in the second accumulator holding `xo3`, the tile's hit count added to `xo3`. -/
theorem later_hit (c : Dev nD) (i : grid0.Coords) (a1 : Memref sig .tc .vmem S8192x128 .f32) (h1 : a1.IsWhole)
    (a2 : Memref sig .tc .vmem S8192x128 .i32) (h2 : a2.IsWhole) (a3 : Memref sig .tc .vmem S1x1 .f32) (h3 : a3.IsWhole)
    (a4 : Memref sig .tc .vmem S1x1 .f32) (h4 : a4.IsWhole) (hc : ¬cond0_0 i)
    (x0 : Vec F S8192x128 .f32) (x1 : Vec F S8192x128 .i32) (xo2 xo3 : Vec F S1x1 .f32) :
    out0_B_3 c i a1 h1 a2 h2 a3 h3 a4 h4 hc x0 x1 xo2 xo3 = hitStep x0 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- The first point leaves, in the first accumulator, the tile's loss sum added to the zero it has just stored. -/
theorem first_loss (c : Dev nD) (i : grid0.Coords) (a1 : Memref sig .tc .vmem S8192x128 .f32) (h1 : a1.IsWhole)
    (a2 : Memref sig .tc .vmem S8192x128 .i32) (h2 : a2.IsWhole) (a3 : Memref sig .tc .vmem S1x1 .f32) (h3 : a3.IsWhole)
    (a4 : Memref sig .tc .vmem S1x1 .f32) (h4 : a4.IsWhole) (hc : cond0_0 i)
    (x0 : Vec F S8192x128 .f32) (x1 : Vec F S8192x128 .i32) :
    out0_A_2 c i a1 h1 a2 h2 a3 h3 a4 h4 hc x0 x1 = lossStep x0 x1 k0_pay2 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz]

/-- The first point leaves, in the second accumulator, the tile's hit count added to the zero it has just stored. -/
theorem first_hit (c : Dev nD) (i : grid0.Coords) (a1 : Memref sig .tc .vmem S8192x128 .f32) (h1 : a1.IsWhole)
    (a2 : Memref sig .tc .vmem S8192x128 .i32) (h2 : a2.IsWhole) (a3 : Memref sig .tc .vmem S1x1 .f32) (h3 : a3.IsWhole)
    (a4 : Memref sig .tc .vmem S1x1 .f32) (h4 : a4.IsWhole) (hc : cond0_0 i)
    (x0 : Vec F S8192x128 .f32) (x1 : Vec F S8192x128 .i32) :
    out0_A_3 c i a1 h1 a2 h2 a3 h3 a4 h4 hc x0 x1 = hitStep x0 x1 k0_pay3 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz]

end Cert.KernelIdeal.Pieces

end
-- ==== Proof.ScalarLaws.lean ====
/-
  The two per-element functions of the computation, on the extended reals, and the scalar laws that join the two
  programs' spellings of them.

  For a probability `a` and an integer label `b`, with `t` the label as a real number, the loss of the element is
  `-(t · log a + (1 - t) · log (1 - a))`, and the element is a hit (counted as 1, otherwise 0) when `a > 1/2` and
  the label is zero.  One program negates by subtracting from zero, the other by negation; one reads the one-bit
  hit flag directly as an unsigned integer, the other widens it to 32 bits first and reads that as a signed
  integer.  On the extended reals `0 - y = -y` for every `y`, infinite ones included, and a one-bit word widened
  with zeros is nonnegative, so both readings give the same 0 or 1.
-/
import Idealize.ShloMosaic.PureOps.Ideal
import Idealize.ShloMosaic.PureOps.Ideal.Laws

noncomputable section

namespace Cert.BceLaws

open Idealize.ShloMosaic

/-- The label as an extended real. -/
abbrev label (b : BitVec 32) : EReal := ((b.toInt : ℝ) : EReal)

/-- The number one as both programs write it. -/
abbrev one : EReal := Ideal.ofBits .f32 0x3F800000#32

/-- The binary cross-entropy of one element: `-(t · log a + (1 - t) · log (1 - a))`. -/
def lossAt (a : EReal) (b : BitVec 32) : EReal :=
  -(label b * Ideal.log a + (one - label b) * Ideal.log (one - a))

/-- The one-bit flag of a hit: the probability is above one half and the label is zero. -/
abbrev hitBit (a : EReal) (b : BitVec 32) : BitVec 1 :=
  IntOp.andi (Ideal.cmp .ogt a (Ideal.ofBits .f32 0x3F000000#32)) (IntOp.cmpi .eq b 0#32)

/-- A hit counted as the real number 1, anything else as 0. -/
def hitAt (a : EReal) (b : BitVec 32) : EReal := (((hitBit a b).toNat : ℝ) : EReal)

/-- Subtracting from the zero both programs write is negation, at every extended real. -/
theorem zero_sub_eq_neg (y : EReal) : Ideal.ofBits .f32 0x00000000#32 - y = -y := by
  rw [Ideal.ofBits_zero_f32, zero_sub]

/-- A one-bit word widened with zeros to 32 bits and read as a signed integer is the word read unsigned. -/
theorem toInt_setWidth_bit : ∀ c : BitVec 1, (c.setWidth 32).toInt = (c.toNat : ℤ) := by decide

/-- The same as real numbers. -/
theorem signed_wide_eq_unsigned (c : BitVec 1) : (((c.setWidth 32).toInt : ℝ) : EReal) = ((c.toNat : ℝ) : EReal) := by
  rw [toInt_setWidth_bit c, Int.cast_natCast]

/-- The loss as the program that subtracts from zero writes it. -/
theorem loss_sub_form (a : EReal) (b : BitVec 32) :
    Ideal.ofBits .f32 0x00000000#32 - (label b * Ideal.log a + (one - label b) * Ideal.log (one - a)) = lossAt a b :=
  zero_sub_eq_neg _

/-- The hit as the program that widens the flag first writes it. -/
theorem hit_wide_form (a : EReal) (b : BitVec 32) :
    ((((hitBit a b).setWidth 32).toInt : ℝ) : EReal) = hitAt a b :=
  signed_wide_eq_unsigned _

end Cert.BceLaws

end
-- ==== Proof.TileReduce.lean ====
/-
  The two accumulator updates of the kernel body, read on the extended reals.

  The body flattens the tile's 8192 × 128 values under a leading unit axis, reduces the two long axes into a
  one-element vector, takes that element out and adds it to the accumulator.  A reduction into a one-element
  result is the sum over every entry, and relabelling the entries under the extra unit axis does not change the
  sum, so the update adds `Σ_y v y` over the entries `y` of the tile.  For the first accumulator `v y` is the loss
  of entry `y`, for the second it is 1 at a hit and 0 elsewhere.
-/
import proofs.«160771_j46024869544057_1_alg».proof.Proof.Gen.KernelIdeal.Skeleton
import proofs.«160771_j46024869544057_1_alg».proof.Proof.ScalarLaws
import Idealize.ShloMosaic.Lib.Pipeline.Value
import Idealize.ShloMosaic.Lib.ValueIdx
import Idealize.ShloMosaic.PureOps.Ideal.Laws

noncomputable section

open Idealize.ShloMosaic Idealize.ShloMosaic.TcCoe

namespace Cert.KernelIdeal.TileValue

open Cert.KernelIdeal Cert.KernelIdeal.Gen Cert.BceLaws

/-- Flattening a tile under a leading unit axis, reducing the two long axes and extracting the one element left
    gives the sum of all the tile's entries. -/
theorem total (v : FVec Ideal S8192x128 .f32) (h1 : S8192x128.ShapeCasts S1x8192x128)
    (h2 : S1x8192x128.Reduces [1, 2] S1) (hφ : FKind.Formats .f32)
    (hacc : (0x00000000#32 : BitVec 32) = FKind.add.neutral .f32 hφ) (h3 : S1.ShapeCasts S1x1x1)
    (h4 : ∀ a, (![0, 0, 0] : Fin 3 → Nat) a < S1x1x1.size a) :
    extractAt ![0, 0, 0] (shapeCast S1x1x1 (multiReduction .add [1, 2] S1 (shapeCast S1x8192x128 v h1)
      0x00000000#32 h2 hφ hacc) h3) h4 = ∑ y : S8192x128.Idx, v y := by
  have ht : ∀ b, S1.size b = 1 := fun b => by match b with | ⟨0, _⟩ => rfl
  show multiReduction .add [1, 2] S1 (shapeCast S1x8192x128 v h1) 0x00000000#32 h2 hφ hacc (Shape.reshapeEquiv h3 _) = _
  rw [Ideal.multiReduction_add_total _ _ h2 ht hφ hacc]
  exact Equiv.sum_comp (Shape.reshapeEquiv h1) v

/-- The same, at the side conditions the kernel body states. -/
theorem total_at (v : FVec Ideal S8192x128 .f32) :
    extractAt ![0, 0, 0] (shapeCast S1x1x1 (multiReduction .add [1, 2] S1
      (shapeCast S1x8192x128 v shapeCasts_S8192x128_S1x8192x128) 0x00000000#32 reduces_S1x8192x128_S1 (.inl rfl) rfl)
      shapeCasts_S1_S1x1x1) inpos_S1x1x1_p0_0_0 = ∑ y : S8192x128.Idx, v y :=
  total v shapeCasts_S8192x128_S1x8192x128 reduces_S1x8192x128_S1 (.inl rfl) rfl shapeCasts_S1_S1x1x1 inpos_S1x1x1_p0_0_0

/-- A signed integer word converted to a float is, on the extended reals, that integer. -/
theorem sitofp_ideal {w : Nat} (b : BitVec w) : FloatOps.sitofp (F := Ideal) .f32 b = ((b.toInt : ℝ) : EReal) := rfl

/-- Entry `y` of the vector the first reduction sums is the loss of entry `y`. -/
theorem loss_entry (x0 : Vec Ideal S8192x128 .f32) (x1 : Vec Ideal S8192x128 .i32) (y : S8192x128.Idx) :
    (subf (broadcast S8192x128 (FloatOps.ofBits .f32 0x00000000#32))
      (addf (mulf (sitofp .f32 x1) (log x0))
        (mulf (subf (broadcast S8192x128 (FloatOps.ofBits .f32 0x3F800000#32)) (sitofp .f32 x1))
          (log (subf (broadcast S8192x128 (FloatOps.ofBits .f32 0x3F800000#32)) x0)))) : FVec Ideal S8192x128 .f32) y
      = lossAt (x0 y) (x1 y) := by
  simp only [subf, addf, mulf, log, sitofp, broadcast, Ideal.subf_def, Ideal.addf_def, Ideal.mulf_def, Ideal.log_def,
    Ideal.ofBits_def, sitofp_ideal]
  exact loss_sub_form (x0 y) (x1 y)

/-- Entry `y` of the vector the second reduction sums is 1 at a hit and 0 elsewhere. -/
theorem hit_entry (x0 : Vec Ideal S8192x128 .f32) (x1 : Vec Ideal S8192x128 .i32) (hw : 1 < 32) (y : S8192x128.Idx) :
    (sitofp .f32 (extui 32 (andi (cmpf (F := Ideal) .ogt x0 (broadcast S8192x128 (FloatOps.ofBits .f32 0x3F000000#32)))
      (cmpi .eq x1 (broadcast S8192x128 0#32))) hw) : FVec Ideal S8192x128 .f32) y = hitAt (x0 y) (x1 y) := by
  simp only [sitofp, extui, andi, cmpf, cmpi, broadcast, Ideal.cmpf_def, Ideal.ofBits_def, sitofp_ideal]
  exact hit_wide_form (x0 y) (x1 y)

/-- The first accumulator's update: the accumulator plus the tile's loss sum. -/
theorem lossStep_apply (x0 : Vec Ideal S8192x128 .f32) (x1 : Vec Ideal S8192x128 .i32) (acc : Vec Ideal S1x1 .f32)
    (j : S1x1.Idx) :
    k0_pay6 (F := Ideal) x0 x1 acc j = acc j + ∑ y : S8192x128.Idx, lossAt (x0 y) (x1 y) := by
  have e4 : k0_pay4 (F := Ideal) x0 = x0 := shapeCast_self _ _
  have e5 : k0_pay5 (F := Ideal) x1 = x1 := shapeCast_self _ _
  unfold k0_pay6
  dsimp only
  rewrite [e4, e5, shapeCast_self, ValueIdx.addf_apply, ValueIdx.broadcast_apply, total_at]
  refine congrArg (acc j + ·) (Finset.sum_congr rfl fun y _ => ?_)
  exact loss_entry x0 x1 y

/-- The second accumulator's update: the accumulator plus the tile's hit count. -/
theorem hitStep_apply (x0 : Vec Ideal S8192x128 .f32) (x1 : Vec Ideal S8192x128 .i32) (acc : Vec Ideal S1x1 .f32)
    (j : S1x1.Idx) :
    k0_pay1 (F := Ideal) (k0_pay7 acc) (k0_pay8 x0 x1) j = acc j + ∑ y : S8192x128.Idx, hitAt (x0 y) (x1 y) := by
  have e4 : k0_pay4 (F := Ideal) x0 = x0 := shapeCast_self _ _
  have e5 : k0_pay5 (F := Ideal) x1 = x1 := shapeCast_self _ _
  unfold k0_pay1 k0_pay7 k0_pay8
  dsimp only
  rewrite [e4, e5, shapeCast_self, ValueIdx.addf_apply, ValueIdx.broadcast_apply, total_at]
  refine congrArg (acc j + ·) (Finset.sum_congr rfl fun y _ => ?_)
  exact hit_entry x0 x1 _ y

end Cert.KernelIdeal.TileValue

end
-- ==== Proof.LibTileSum.lean ====
import Mathlib.Data.EReal.Operations
import Mathlib.Algebra.BigOperators.Fin
import Mathlib.Algebra.BigOperators.Ring.Finset
import Mathlib.Logic.Equiv.Fin.Basic

/-!
# Sums over a grid of tiles

Pure algebra, no program: a sum over `n * m` points regrouped as `n` blocks of `m` points, the
two contractions `Sᵀ·X` and `Sᵀ·A·S` computed tile by tile against the same contractions computed
whole, and a running accumulator over the points of a grid against the double sum over the grid.

The regrouping laws hold in any additive commutative monoid, so in particular in the extended
reals.  The law for `Sᵀ·A·S` moves a factor across a sum, which the extended reals do not allow at
`±∞`; it is proved for real-valued `S` and `A` and transported along the coercion `ℝ → EReal`.
-/

namespace Cert.TileSum

open Finset

variable {M : Type*} [AddCommMonoid M]

/-! ## Regrouping a sum over `n * m` points into `n` blocks of `m` -/

/-- For `i < n` and `r < m`, the point `m * i + r` lies below `n * m`. -/
theorem tile_lt {n m : ℕ} (i : Fin n) (r : Fin m) : m * i.1 + r.1 < n * m :=
  calc m * i.1 + r.1 < m * i.1 + m := Nat.add_lt_add_left r.2 _
    _ = (i.1 + 1) * m := by rw [Nat.succ_mul, Nat.mul_comm]
    _ ≤ n * m := Nat.mul_le_mul_right _ i.2

/-- The point `m * i + r` of block `i`, offset `r`, as an element of `Fin (n * m)`. -/
def tile {n m : ℕ} (i : Fin n) (r : Fin m) : Fin (n * m) := ⟨m * i.1 + r.1, tile_lt i r⟩

@[simp] theorem tile_val {n m : ℕ} (i : Fin n) (r : Fin m) : (tile i r).1 = m * i.1 + r.1 := rfl

/-- `tile i r` is the image of `(i, r)` under the standard bijection `Fin n × Fin m ≃ Fin (n * m)`. -/
theorem tile_eq_finProdFinEquiv {n m : ℕ} (i : Fin n) (r : Fin m) :
    tile i r = finProdFinEquiv (i, r) :=
  Fin.ext (by simp [finProdFinEquiv, Nat.add_comm])

/-- **Regrouping.** `Σ_{i<n} Σ_{r<m} f (m*i + r) = Σ_{k<n*m} f k`, for `f` on `Fin (n * m)`. -/
theorem sum_tile (n m : ℕ) (f : Fin (n * m) → M) :
    ∑ i : Fin n, ∑ r : Fin m, f (tile i r) = ∑ k : Fin (n * m), f k := by
  rw [← Fintype.sum_prod_type']
  exact Fintype.sum_equiv finProdFinEquiv _ _ fun x => by rw [tile_eq_finProdFinEquiv]

/-- **Regrouping**, for a function on `ℕ`: `Σ_{i<n} Σ_{r<m} f (m*i + r) = Σ_{k<n*m} f k`. -/
theorem sum_tile_nat (n m : ℕ) (f : ℕ → M) :
    ∑ i : Fin n, ∑ r : Fin m, f (m * i.1 + r.1) = ∑ k : Fin (n * m), f k.1 :=
  sum_tile n m fun k => f k.1

/-- **Regrouping**, over ranges of `ℕ`: `Σ_{i<n} Σ_{r<m} f (m*i + r) = Σ_{k<n*m} f k`. -/
theorem sum_tile_range (n m : ℕ) (f : ℕ → M) :
    ∑ i ∈ range n, ∑ r ∈ range m, f (m * i + r) = ∑ k ∈ range (n * m), f k := by
  rw [Finset.sum_range, Finset.sum_range fun k => f k]
  simp only [Finset.sum_range fun r => f (m * _ + r)]
  exact sum_tile_nat n m f

/-- Regrouping with the block and the offset given separately:
`Σ_{k<n*m} G (k / m) (k % m) = Σ_{i<n} Σ_{r<m} G i r`. -/
theorem sum_div_mod (n m : ℕ) (G : ℕ → ℕ → M) :
    ∑ k : Fin (n * m), G (k.1 / m) (k.1 % m) = ∑ i : Fin n, ∑ r : Fin m, G i.1 r.1 := by
  rw [← sum_tile_nat n m fun k => G (k / m) (k % m)]
  refine Finset.sum_congr rfl fun i _ => Finset.sum_congr rfl fun r _ => ?_
  have hm : 0 < m := Nat.lt_of_le_of_lt (Nat.zero_le _) r.2
  rw [Nat.mul_add_div hm, Nat.div_eq_of_lt r.2, Nat.add_zero, Nat.mul_add_mod,
    Nat.mod_eq_of_lt r.2]

/-- 8192 rows as 8 tiles of 1024 rows: `Σ_{i<8} Σ_{r<1024} f (1024*i + r) = Σ_{k<8192} f k`. -/
theorem sum_8_1024 (f : Fin 8192 → M) :
    ∑ i : Fin 8, ∑ r : Fin 1024, f ⟨1024 * i.1 + r.1, by omega⟩ = ∑ k : Fin 8192, f k :=
  sum_tile 8 1024 f

/-- 8192 columns as 4 tiles of 2048 columns: `Σ_{j<4} Σ_{c<2048} f (2048*j + c) = Σ_{k<8192} f k`. -/
theorem sum_4_2048 (f : Fin 8192 → M) :
    ∑ j : Fin 4, ∑ c : Fin 2048, f ⟨2048 * j.1 + c.1, by omega⟩ = ∑ k : Fin 8192, f k :=
  sum_tile 4 2048 f

/-- 32 grid points as 8 rows of 4: `Σ_{i<8} Σ_{j<4} g (4*i + j) = Σ_{t<32} g t`. -/
theorem sum_8_4 (g : Fin 32 → M) :
    ∑ i : Fin 8, ∑ j : Fin 4, g ⟨4 * i.1 + j.1, by omega⟩ = ∑ t : Fin 32, g t :=
  sum_tile 8 4 g

/-- `sum_8_1024` for a function on `ℕ`. -/
theorem sum_8_1024_nat (f : ℕ → M) :
    ∑ i : Fin 8, ∑ r : Fin 1024, f (1024 * i.1 + r.1) = ∑ k : Fin 8192, f k.1 :=
  sum_tile_nat 8 1024 f

/-- `sum_4_2048` for a function on `ℕ`. -/
theorem sum_4_2048_nat (f : ℕ → M) :
    ∑ j : Fin 4, ∑ c : Fin 2048, f (2048 * j.1 + c.1) = ∑ k : Fin 8192, f k.1 :=
  sum_tile_nat 4 2048 f

/-! ## The contraction `Sᵀ·X`, tile by tile -/

/-- **`x1`.** `Σ_{i<n} Σ_{r<m} S (m*i+r) * X (m*i+r) = Σ_{k<n*m} S k * X k` in the extended reals
(or any additive commutative monoid with a product): only a regrouping of one sum, so no
finiteness is needed. -/
theorem x1_tiles {E : Type*} [AddCommMonoid E] [Mul E] (n m : ℕ) (S X : ℕ → E) :
    ∑ i : Fin n, ∑ r : Fin m, S (m * i.1 + r.1) * X (m * i.1 + r.1)
      = ∑ k : Fin (n * m), S k.1 * X k.1 :=
  sum_tile_nat n m fun k => S k * X k

/-- **`x1K = x1R`**: the 8 row tiles of 1024 rows against the whole contraction over 8192 rows,
in the extended reals, with no hypothesis. -/
theorem x1K_eq_x1R {ι κ : Type*} (S : ℕ → ι → EReal) (X : ℕ → κ → EReal) (a : ι) (d : κ) :
    ∑ i : Fin 8, ∑ r : Fin 1024, S (1024 * i.1 + r.1) a * X (1024 * i.1 + r.1) d
      = ∑ k : Fin 8192, S k.1 a * X k.1 d :=
  x1_tiles 8 1024 (fun k => S k a) (fun k => X k d)

/-! ## The contraction `Sᵀ·A·S`, tile by tile -/

/-- **`adj` over a commutative semiring.**  With rows in `n` tiles of `m` and columns in `p` tiles
of `q`,
`Σ_{i<n} Σ_{j<p} Σ_{c<q} (Σ_{r<m} u (m*i+r) * α (m*i+r) (q*j+c)) * v (q*j+c)
  = Σ_{c<p*q} (Σ_{r<n*m} u r * α r c) * v c`:
regroup the columns, distribute `v c` over the inner sum, exchange the sums over row tiles and
columns, regroup the rows, and factor `v c` out again. -/
theorem adj_tiles {R : Type*} [CommSemiring R] (n m p q : ℕ) (u v : ℕ → R) (α : ℕ → ℕ → R) :
    ∑ i : Fin n, ∑ j : Fin p, ∑ c : Fin q,
        (∑ r : Fin m, u (m * i.1 + r.1) * α (m * i.1 + r.1) (q * j.1 + c.1)) * v (q * j.1 + c.1)
      = ∑ c : Fin (p * q), (∑ r : Fin (n * m), u r.1 * α r.1 c.1) * v c.1 :=
  calc ∑ i : Fin n, ∑ j : Fin p, ∑ c : Fin q,
        (∑ r : Fin m, u (m * i.1 + r.1) * α (m * i.1 + r.1) (q * j.1 + c.1)) * v (q * j.1 + c.1)
      = ∑ i : Fin n, ∑ c : Fin (p * q),
          (∑ r : Fin m, u (m * i.1 + r.1) * α (m * i.1 + r.1) c.1) * v c.1 :=
        Finset.sum_congr rfl fun i _ =>
          sum_tile_nat p q fun c => (∑ r : Fin m, u (m * i.1 + r.1) * α (m * i.1 + r.1) c) * v c
    _ = ∑ c : Fin (p * q), ∑ i : Fin n, ∑ r : Fin m,
          u (m * i.1 + r.1) * α (m * i.1 + r.1) c.1 * v c.1 := by
        rw [Finset.sum_comm]; simp only [Finset.sum_mul]
    _ = ∑ c : Fin (p * q), ∑ r : Fin (n * m), u r.1 * α r.1 c.1 * v c.1 :=
        Finset.sum_congr rfl fun c _ => sum_tile_nat n m fun r => u r * α r c.1 * v c.1
    _ = ∑ c : Fin (p * q), (∑ r : Fin (n * m), u r.1 * α r.1 c.1) * v c.1 := by
        simp only [Finset.sum_mul]

/-- The coercion `ℝ → EReal` commutes with finite sums. -/
@[norm_cast]
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- **`adj` in the extended reals, real-valued data.**  `adj_tiles` for `u`, `v`, `α` that are
coercions of real-valued functions: both sides are coercions of the corresponding real sums. -/
theorem adj_tiles_coe (n m p q : ℕ) (u v : ℕ → ℝ) (α : ℕ → ℕ → ℝ) :
    ∑ i : Fin n, ∑ j : Fin p, ∑ c : Fin q,
        (∑ r : Fin m, (u (m * i.1 + r.1) : EReal) * (α (m * i.1 + r.1) (q * j.1 + c.1) : EReal))
          * (v (q * j.1 + c.1) : EReal)
      = ∑ c : Fin (p * q), (∑ r : Fin (n * m), (u r.1 : EReal) * (α r.1 c.1 : EReal))
          * (v c.1 : EReal) := by
  have h := congrArg Real.toEReal (adj_tiles n m p q u v α)
  simpa only [coe_sum, EReal.coe_mul] using h

/-- **`adjK = adjR`**: 8 × 4 tiles of 1024 × 2048 against the whole contraction over
8192 × 8192, in the extended reals, for `S` and `A` the coercions of real-valued `s` and `α`. -/
theorem adjK_eq_adjR {ι : Type*} (s : ℕ → ι → ℝ) (α : ℕ → ℕ → ℝ) (a b : ι) :
    ∑ i : Fin 8, ∑ j : Fin 4, ∑ c : Fin 2048,
        (∑ r : Fin 1024, (s (1024 * i.1 + r.1) a : EReal)
            * (α (1024 * i.1 + r.1) (2048 * j.1 + c.1) : EReal))
          * (s (2048 * j.1 + c.1) b : EReal)
      = ∑ c : Fin 8192, (∑ r : Fin 8192, (s r.1 a : EReal) * (α r.1 c.1 : EReal))
          * (s c.1 b : EReal) :=
  adj_tiles_coe 8 1024 4 2048 (fun k => s k a) (fun k => s k b) α

/-- **`adjK = adjR`, finiteness as a hypothesis.**  The same law for extended-real `S` and `A`
every entry of which is the coercion of some real. -/
theorem adjK_eq_adjR_of_real {ι : Type*} (S : ℕ → ι → EReal) (A : ℕ → ℕ → EReal)
    (hS : ∀ k a, ∃ x : ℝ, S k a = (x : EReal)) (hA : ∀ k l, ∃ x : ℝ, A k l = (x : EReal))
    (a b : ι) :
    ∑ i : Fin 8, ∑ j : Fin 4, ∑ c : Fin 2048,
        (∑ r : Fin 1024, S (1024 * i.1 + r.1) a * A (1024 * i.1 + r.1) (2048 * j.1 + c.1))
          * S (2048 * j.1 + c.1) b
      = ∑ c : Fin 8192, (∑ r : Fin 8192, S r.1 a * A r.1 c.1) * S c.1 b := by
  choose s hs using hS
  choose α hα using hA
  simp only [hs, hα]
  exact adjK_eq_adjR s α a b

/-! ## The running accumulator over the points of a grid -/

/-- The accumulator after `t` points: it starts at `0` and point `t` adds `g t`. -/
def acc (g : ℕ → M) : ℕ → M
  | 0 => 0
  | t + 1 => acc g t + g t

@[simp] theorem acc_zero (g : ℕ → M) : acc g 0 = 0 := rfl

@[simp] theorem acc_succ (g : ℕ → M) (t : ℕ) : acc g (t + 1) = acc g t + g t := rfl

/-- After `n` points the accumulator holds `Σ_{t<n} g t`. -/
theorem acc_eq_sum_range (g : ℕ → M) (n : ℕ) : acc g n = ∑ t ∈ range n, g t := by
  induction n with
  | zero => rfl
  | succ n ih => rw [acc_succ, ih, Finset.sum_range_succ]

/-- After `n` points the accumulator holds `Σ_{t : Fin n} g t`. -/
theorem acc_eq_sum (g : ℕ → M) (n : ℕ) : acc g n = ∑ t : Fin n, g t.1 := by
  rw [acc_eq_sum_range, Finset.sum_range]

/-- After the `n * m` points of an `n × m` grid visited row by row (point `t = m*i + j`), the
accumulator holds the double sum over the grid. -/
theorem acc_grid (g : ℕ → M) (n m : ℕ) :
    acc g (n * m) = ∑ i : Fin n, ∑ j : Fin m, g (m * i.1 + j.1) := by
  rw [acc_eq_sum, sum_tile_nat]

/-- The same with the contribution of point `t` given by its row `t / m` and column `t % m`. -/
theorem acc_grid_div_mod (G : ℕ → ℕ → M) (n m : ℕ) :
    acc (fun t => G (t / m) (t % m)) (n * m) = ∑ i : Fin n, ∑ j : Fin m, G i.1 j.1 := by
  rw [acc_eq_sum, sum_div_mod]

/-- The 32 points of the 8 × 4 grid: `acc g 32 = Σ_{t<32} g t`. -/
theorem acc_32 (g : ℕ → M) : acc g 32 = ∑ t : Fin 32, g t.1 := acc_eq_sum g 32

/-- The 32 points of the 8 × 4 grid: `acc g 32 = Σ_{i<8} Σ_{j<4} g (4*i + j)`. -/
theorem acc_32_grid (g : ℕ → M) : acc g 32 = ∑ i : Fin 8, ∑ j : Fin 4, g (4 * i.1 + j.1) :=
  acc_grid g 8 4

/-- The accumulator to which only the points satisfying `p` add. -/
def accIf (p : ℕ → Prop) [DecidablePred p] (h : ℕ → M) : ℕ → M
  | 0 => 0
  | t + 1 => if p t then accIf p h t + h t else accIf p h t

@[simp] theorem accIf_zero (p : ℕ → Prop) [DecidablePred p] (h : ℕ → M) : accIf p h 0 = 0 := rfl

@[simp] theorem accIf_succ (p : ℕ → Prop) [DecidablePred p] (h : ℕ → M) (t : ℕ) :
    accIf p h (t + 1) = if p t then accIf p h t + h t else accIf p h t := rfl

/-- A point that does not add, adds `0`. -/
theorem accIf_eq_acc (p : ℕ → Prop) [DecidablePred p] (h : ℕ → M) (n : ℕ) :
    accIf p h n = acc (fun t => if p t then h t else 0) n := by
  induction n with
  | zero => rfl
  | succ n ih =>
    rw [accIf_succ, acc_succ, ih]
    by_cases hp : p n
    · rw [if_pos hp, if_pos hp]
    · rw [if_neg hp, if_neg hp, add_zero]

/-- Over an `n × m` grid with `0 < m`, if only the first point of each row (`t % m = 0`) adds, the
accumulator ends with `Σ_{i<n} h (m*i)`. -/
theorem accIf_mod_grid (h : ℕ → M) (n m : ℕ) (hm : 0 < m) :
    accIf (fun t => t % m = 0) h (n * m) = ∑ i : Fin n, h (m * i.1) := by
  rw [accIf_eq_acc, acc_grid]
  refine Finset.sum_congr rfl fun i _ => ?_
  beta_reduce
  rw [Finset.sum_eq_single (⟨0, hm⟩ : Fin m)]
  · rw [Nat.add_zero, Nat.mul_mod_right, if_pos rfl]
  · intro j _ hj
    have hne : (m * i.1 + j.1) % m ≠ 0 := by
      rw [Nat.mul_add_mod, Nat.mod_eq_of_lt j.2]
      exact fun h0 => hj (Fin.ext h0)
    rw [if_neg hne]
  · intro h0
    exact absurd (Finset.mem_univ _) h0

/-- The 8 × 4 grid, only the points with `t % 4 = 0` adding: the accumulator ends with
`Σ_{i<8} h (4*i)`. -/
theorem accIf_32 (h : ℕ → M) :
    accIf (fun t => t % 4 = 0) h 32 = ∑ i : Fin 8, h (4 * i.1) :=
  accIf_mod_grid h 8 4 (by decide)

/-- The same with the contribution of a row's first point given by the row `t / m` alone. -/
theorem accIf_mod_grid_div (H : ℕ → M) (n m : ℕ) (hm : 0 < m) :
    accIf (fun t => t % m = 0) (fun t => H (t / m)) (n * m) = ∑ i : Fin n, H i.1 := by
  rw [accIf_mod_grid _ n m hm]
  refine Finset.sum_congr rfl fun i _ => ?_
  beta_reduce
  rw [Nat.mul_div_cancel_left _ hm]

/-! ### The accumulator as a sequence of observed values

The same laws for any sequence `f` of observed accumulator values that obeys the step equation on
the first `N` points, with the accumulator either starting at `0` or being cleared by the first
point (whatever it held before). -/

/-- A sequence that starts at `0` and whose step `t < N` adds `g t` is the accumulator up to `N`. -/
theorem eq_acc_of_step (N : ℕ) (f g : ℕ → M) (h0 : f 0 = 0)
    (hs : ∀ t, t < N → f (t + 1) = f t + g t) : ∀ n, n ≤ N → f n = acc g n := by
  intro n
  induction n with
  | zero => intro _; exact h0
  | succ n ih => intro hn; rw [hs n hn, ih (Nat.le_of_succ_le hn), acc_succ]

/-- The same when the sequence starts anywhere and the first point, instead of adding to what it
finds, leaves `g 0` (the accumulator is cleared at the first point). -/
theorem eq_acc_of_step_reset (N : ℕ) (f g : ℕ → M) (h1 : f 1 = g 0)
    (hs : ∀ t, 0 < t → t < N → f (t + 1) = f t + g t) :
    ∀ n, 0 < n → n ≤ N → f n = acc g n := by
  intro n
  induction n with
  | zero => intro h; exact absurd h (Nat.lt_irrefl 0)
  | succ n ih =>
    intro _ hn
    rcases Nat.eq_zero_or_pos n with rfl | hpos
    · rw [h1, acc_succ, acc_zero, zero_add]
    · rw [hs n hpos hn, ih hpos (Nat.le_of_succ_le hn), acc_succ]

/-- A sequence that starts at `0` and whose step `t < N` adds `h t` exactly when `p t` is the
conditional accumulator up to `N`. -/
theorem eq_accIf_of_step (N : ℕ) (p : ℕ → Prop) [DecidablePred p] (f h : ℕ → M) (h0 : f 0 = 0)
    (hs : ∀ t, t < N → f (t + 1) = if p t then f t + h t else f t) :
    ∀ n, n ≤ N → f n = accIf p h n := by
  intro n
  induction n with
  | zero => intro _; exact h0
  | succ n ih => intro hn; rw [hs n hn, ih (Nat.le_of_succ_le hn), accIf_succ]

/-- The same when the first point (which satisfies `p`) clears the accumulator before adding. -/
theorem eq_accIf_of_step_reset (N : ℕ) (p : ℕ → Prop) [DecidablePred p] (f h : ℕ → M)
    (hp0 : p 0) (h1 : f 1 = h 0)
    (hs : ∀ t, 0 < t → t < N → f (t + 1) = if p t then f t + h t else f t) :
    ∀ n, 0 < n → n ≤ N → f n = accIf p h n := by
  intro n
  induction n with
  | zero => intro h; exact absurd h (Nat.lt_irrefl 0)
  | succ n ih =>
    intro _ hn
    rcases Nat.eq_zero_or_pos n with rfl | hpos
    · rw [h1, accIf_succ, if_pos hp0, accIf_zero, zero_add]
    · rw [hs n hpos hn, ih hpos (Nat.le_of_succ_le hn), accIf_succ]

/-- The accumulator is the left fold of `+` over the points `0, …, n-1` in order. -/
theorem foldl_range_eq_acc (g : ℕ → M) (n : ℕ) :
    (List.range n).foldl (fun s t => s + g t) 0 = acc g n := by
  induction n with
  | zero => rfl
  | succ n ih => rw [List.range_succ, List.foldl_append, ih]; rfl

/-- For `g` given on `Fin n` only: the accumulator of its extension by `0` ends with
`Σ_{t : Fin n} g t`. -/
theorem acc_extend_eq_sum {n : ℕ} (g : Fin n → M) :
    acc (fun t => if h : t < n then g ⟨t, h⟩ else 0) n = ∑ t : Fin n, g t := by
  rw [acc_eq_sum]
  refine Finset.sum_congr rfl fun t _ => ?_
  rw [dif_pos t.2]

/-! ## Extended reals that are real numbers -/

/-- An extended real that is the coercion of a real number, that is, neither `+∞` nor `-∞`. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

/-- Being a real number is being different from both infinities. -/
theorem isReal_iff {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- The sum of two reals is real. -/
theorem IsReal.add {x y : EReal} : IsReal x → IsReal y → IsReal (x + y)
  | ⟨a, ha⟩, ⟨b, hb⟩ => ⟨a + b, by rw [ha, hb, EReal.coe_add]⟩

/-- The product of two reals is real. -/
theorem IsReal.mul {x y : EReal} : IsReal x → IsReal y → IsReal (x * y)
  | ⟨a, ha⟩, ⟨b, hb⟩ => ⟨a * b, by rw [ha, hb, EReal.coe_mul]⟩

/-- A finite sum of reals is real. -/
theorem IsReal.sum {ι : Type*} (s : Finset ι) (f : ι → EReal) (h : ∀ i ∈ s, IsReal (f i)) :
    IsReal (∑ i ∈ s, f i) :=
  Finset.sum_induction f IsReal (fun _ _ => IsReal.add) isReal_zero h

/-- A signed integer word converted exactly is a real number. -/
theorem isReal_toInt {w : ℕ} (b : BitVec w) : IsReal ((b.toInt : ℝ) : EReal) := ⟨_, rfl⟩

/-- An unsigned integer word converted exactly is a real number. -/
theorem isReal_toNat {w : ℕ} (b : BitVec w) : IsReal ((b.toNat : ℝ) : EReal) := ⟨_, rfl⟩

/-- A one-hot entry, a condition read as `1` or `0`, is a real number. -/
theorem isReal_ite (c : Prop) [Decidable c] : IsReal (if c then (1 : EReal) else 0) := by
  by_cases hc : c
  · rw [if_pos hc]; exact isReal_one
  · rw [if_neg hc]; exact isReal_zero

/-- A one-hot entry, a one-bit word read unsigned, is a real number (and is `0` or `1`). -/
theorem isReal_bit (b : BitVec 1) : IsReal ((b.toNat : ℝ) : EReal) := isReal_toNat b

/-! ## The two laws end to end: accumulator over the 8 × 4 grid against the whole contraction -/

/-- **`adjK = adjR` for real entries.**  The law `adjK_eq_adjR` for extended-real `S` and `A` all of
whose entries are real numbers. -/
theorem adjK_eq_adjR_of_isReal {ι : Type*} (S : ℕ → ι → EReal) (A : ℕ → ℕ → EReal)
    (hS : ∀ k a, IsReal (S k a)) (hA : ∀ k l, IsReal (A k l)) (a b : ι) :
    ∑ i : Fin 8, ∑ j : Fin 4, ∑ c : Fin 2048,
        (∑ r : Fin 1024, S (1024 * i.1 + r.1) a * A (1024 * i.1 + r.1) (2048 * j.1 + c.1))
          * S (2048 * j.1 + c.1) b
      = ∑ c : Fin 8192, (∑ r : Fin 8192, S r.1 a * A r.1 c.1) * S c.1 b :=
  adjK_eq_adjR_of_real S A hS hA a b

/-- **`adj`, end to end.**  The accumulator that starts at `0` and to which grid point `t` (row tile
`t / 4`, column tile `t % 4`) adds the tile's contribution ends, after the 32 points, with the
whole contraction `Σ_{c<8192} (Σ_{r<8192} S r a * A r c) * S c b`, for real-valued `S` and `A`. -/
theorem adj_acc_eq {ι : Type*} (S : ℕ → ι → EReal) (A : ℕ → ℕ → EReal)
    (hS : ∀ k a, IsReal (S k a)) (hA : ∀ k l, IsReal (A k l)) (a b : ι) :
    acc (fun t => ∑ c : Fin 2048,
        (∑ r : Fin 1024, S (1024 * (t / 4) + r.1) a * A (1024 * (t / 4) + r.1) (2048 * (t % 4) + c.1))
          * S (2048 * (t % 4) + c.1) b) 32
      = ∑ c : Fin 8192, (∑ r : Fin 8192, S r.1 a * A r.1 c.1) * S c.1 b :=
  (acc_grid_div_mod (fun i j => ∑ c : Fin 2048,
      (∑ r : Fin 1024, S (1024 * i + r.1) a * A (1024 * i + r.1) (2048 * j + c.1))
        * S (2048 * j + c.1) b) 8 4).trans
    (adjK_eq_adjR_of_isReal S A hS hA a b)

/-- **`x1`, end to end.**  The accumulator that starts at `0` and to which only the first point of
each grid row (`t % 4 = 0`, row tile `t / 4`) adds the tile's contribution ends, after the 32
points, with the whole contraction `Σ_{k<8192} S k a * X k d`; no finiteness is needed. -/
theorem x1_acc_eq {ι κ : Type*} (S : ℕ → ι → EReal) (X : ℕ → κ → EReal) (a : ι) (d : κ) :
    accIf (fun t => t % 4 = 0)
        (fun t => ∑ r : Fin 1024, S (1024 * (t / 4) + r.1) a * X (1024 * (t / 4) + r.1) d) 32
      = ∑ k : Fin 8192, S k.1 a * X k.1 d :=
  (accIf_mod_grid_div
      (fun i => ∑ r : Fin 1024, S (1024 * i + r.1) a * X (1024 * i + r.1) d) 8 4 (by decide)).trans
    (x1K_eq_x1R S X a d)

/-! ## The same laws for data indexed by `Fin 8192` -/

/-- The accumulator after `n` points depends only on the contributions of the points below `n`. -/
theorem acc_congr {g g' : ℕ → M} {n : ℕ} (h : ∀ t, t < n → g t = g' t) : acc g n = acc g' n := by
  rw [acc_eq_sum_range, acc_eq_sum_range]
  exact Finset.sum_congr rfl fun t ht => h t (Finset.mem_range.1 ht)

/-- The conditional accumulator after `n` points depends only on the contributions of the points
below `n`. -/
theorem accIf_congr (p : ℕ → Prop) [DecidablePred p] {h h' : ℕ → M} {n : ℕ}
    (hh : ∀ t, t < n → h t = h' t) : accIf p h n = accIf p h' n := by
  rw [accIf_eq_acc, accIf_eq_acc]
  exact acc_congr fun t ht => by beta_reduce; rw [hh t ht]

/-- **`x1K = x1R`**, data indexed by `Fin 8192`. -/
theorem x1K_eq_x1R_fin {ι κ : Type*} (S : Fin 8192 → ι → EReal) (X : Fin 8192 → κ → EReal)
    (a : ι) (d : κ) :
    ∑ i : Fin 8, ∑ r : Fin 1024,
        S ⟨1024 * i.1 + r.1, by omega⟩ a * X ⟨1024 * i.1 + r.1, by omega⟩ d
      = ∑ k : Fin 8192, S k a * X k d :=
  sum_8_1024 fun k => S k a * X k d

/-- **`adj` over a commutative semiring**, data indexed by `Fin (n * m)` and `Fin (p * q)`: the law
`adj_tiles` with the same proof. -/
theorem adj_tiles_fin {R : Type*} [CommSemiring R] (n m p q : ℕ) (u : Fin (n * m) → R)
    (v : Fin (p * q) → R) (α : Fin (n * m) → Fin (p * q) → R) :
    ∑ i : Fin n, ∑ j : Fin p, ∑ c : Fin q,
        (∑ r : Fin m, u (tile i r) * α (tile i r) (tile j c)) * v (tile j c)
      = ∑ c : Fin (p * q), (∑ r : Fin (n * m), u r * α r c) * v c :=
  calc ∑ i : Fin n, ∑ j : Fin p, ∑ c : Fin q,
        (∑ r : Fin m, u (tile i r) * α (tile i r) (tile j c)) * v (tile j c)
      = ∑ i : Fin n, ∑ c : Fin (p * q), (∑ r : Fin m, u (tile i r) * α (tile i r) c) * v c :=
        Finset.sum_congr rfl fun i _ =>
          sum_tile p q fun c => (∑ r : Fin m, u (tile i r) * α (tile i r) c) * v c
    _ = ∑ c : Fin (p * q), ∑ i : Fin n, ∑ r : Fin m, u (tile i r) * α (tile i r) c * v c := by
        rw [Finset.sum_comm]; simp only [Finset.sum_mul]
    _ = ∑ c : Fin (p * q), ∑ r : Fin (n * m), u r * α r c * v c :=
        Finset.sum_congr rfl fun c _ => sum_tile n m fun r => u r * α r c * v c
    _ = ∑ c : Fin (p * q), (∑ r : Fin (n * m), u r * α r c) * v c := by
        simp only [Finset.sum_mul]

/-- `adj_tiles_fin` in the extended reals for coercions of real-valued data. -/
theorem adj_tiles_fin_coe (n m p q : ℕ) (u : Fin (n * m) → ℝ) (v : Fin (p * q) → ℝ)
    (α : Fin (n * m) → Fin (p * q) → ℝ) :
    ∑ i : Fin n, ∑ j : Fin p, ∑ c : Fin q,
        (∑ r : Fin m, (u (tile i r) : EReal) * (α (tile i r) (tile j c) : EReal))
          * (v (tile j c) : EReal)
      = ∑ c : Fin (p * q), (∑ r : Fin (n * m), (u r : EReal) * (α r c : EReal)) * (v c : EReal) := by
  have h := congrArg Real.toEReal (adj_tiles_fin n m p q u v α)
  simpa only [coe_sum, EReal.coe_mul] using h

/-- **`adjK = adjR`**, data indexed by `Fin 8192`, every entry of `S` and `A` a real number. -/
theorem adjK_eq_adjR_fin {ι : Type*} (S : Fin 8192 → ι → EReal) (A : Fin 8192 → Fin 8192 → EReal)
    (hS : ∀ k a, IsReal (S k a)) (hA : ∀ k l, IsReal (A k l)) (a b : ι) :
    ∑ i : Fin 8, ∑ j : Fin 4, ∑ c : Fin 2048,
        (∑ r : Fin 1024, S ⟨1024 * i.1 + r.1, by omega⟩ a
            * A ⟨1024 * i.1 + r.1, by omega⟩ ⟨2048 * j.1 + c.1, by omega⟩)
          * S ⟨2048 * j.1 + c.1, by omega⟩ b
      = ∑ c : Fin 8192, (∑ r : Fin 8192, S r a * A r c) * S c b := by
  have hS' : ∀ k a, ∃ x : ℝ, S k a = (x : EReal) := hS
  have hA' : ∀ k l, ∃ x : ℝ, A k l = (x : EReal) := hA
  choose s hs using hS'
  choose α hα using hA'
  simp only [hs, hα]
  exact adj_tiles_fin_coe 8 1024 4 2048 (fun k => s k a) (fun k => s k b) α

/-- Over an `n × m` grid, if point `m*i + j` adds `G i j`, the accumulator ends with
`Σ_{i<n} Σ_{j<m} G i j`. -/
theorem acc_grid_of_eq (n m : ℕ) (g : ℕ → M) (G : Fin n → Fin m → M)
    (hg : ∀ (i : Fin n) (j : Fin m), g (m * i.1 + j.1) = G i j) :
    acc g (n * m) = ∑ i : Fin n, ∑ j : Fin m, G i j := by
  rw [acc_grid]
  exact Finset.sum_congr rfl fun i _ => Finset.sum_congr rfl fun j _ => hg i j

/-- Over an `n × m` grid with `0 < m`, if only the first point of each row adds and point `m*i`
adds `H i`, the accumulator ends with `Σ_{i<n} H i`. -/
theorem accIf_mod_grid_of_eq (n m : ℕ) (hm : 0 < m) (h : ℕ → M) (H : Fin n → M)
    (hh : ∀ i : Fin n, h (m * i.1) = H i) :
    accIf (fun t => t % m = 0) h (n * m) = ∑ i : Fin n, H i := by
  rw [accIf_mod_grid h n m hm]
  exact Finset.sum_congr rfl fun i _ => hh i

end Cert.TileSum
-- ==== Proof.TileIndex.lean ====
/-
  The flat position of an entry of a tile, and the sum over all entries of all tiles.

  The 16777216 elements are laid out row-major as 131072 rows of 128 lanes, and the rows are cut into 16 tiles of
  8192 rows.  Entry `(r, l)` of tile `t` is element `(8192 t + r) · 128 + l`.  Every element is exactly one entry
  of exactly one tile, so summing any function over the entries of all tiles is summing it over all elements;
  this holds in every additive commutative monoid, hence on the extended reals with no finiteness.
-/
import Idealize.ShloMosaic.Lib.ValueIdx
import proofs.«160771_j46024869544057_1_alg».proof.Proof.LibTileSum

noncomputable section

namespace Cert.BceTiles

open Idealize.ShloMosaic Idealize.ShloMosaic.ValueIdx Cert.TileSum

/-- The indices of the flat array of all elements. -/
abbrev Flat : Shape := ⟨1, ![16777216]⟩
/-- The indices of one tile. -/
abbrev Tile : Shape := ⟨2, ![8192, 128]⟩
/-- The indices of the array as rows of lanes. -/
abbrev Rows : Shape := ⟨2, ![131072, 128]⟩

theorem flat_lt (t : Fin 16) (r : Fin 8192) (l : Fin 128) : (8192 * t.val + r.val) * 128 + l.val < 16777216 := by
  have := t.isLt; have := r.isLt; have := l.isLt; omega

/-- Element `(8192 t + r) · 128 + l`: entry `(r, l)` of tile `t`. -/
def flat (t : Fin 16) (y : Tile.Idx) : Flat.Idx :=
  ix1 ⟨(8192 * t.val + (y 0).val) * 128 + (y 1).val, flat_lt t (y 0) (y 1)⟩

@[simp] theorem flat_val (t : Fin 16) (y : Tile.Idx) :
    ((flat t y) 0).val = (8192 * t.val + (y 0).val) * 128 + (y 1).val := rfl

/-- A sum over the flat indices is the sum over their one coordinate. -/
theorem sum_flat_idx {M : Type*} [AddCommMonoid M] (f : Flat.Idx → M) :
    ∑ j, f j = ∑ k : Fin 16777216, f (ix1 k) := by
  let e : Flat.Idx ≃ Fin 16777216 :=
    { toFun := fun j => j 0, invFun := ix1, left_inv := fun j => (eq_ix1 j).symm, right_inv := fun _ => rfl }
  rw [← Equiv.sum_comp e.symm f]
  rfl

/-- **Every element is one entry of one tile**: the sum over the entries of all tiles is the sum over all elements. -/
theorem sum_tiles {M : Type*} [AddCommMonoid M] (f : Flat.Idx → M) :
    ∑ t : Fin 16, ∑ y : Tile.Idx, f (flat t y) = ∑ j, f j := by
  rw [sum_flat_idx f]
  rw [← sum_tile 131072 128 (fun k : Fin (131072 * 128) => f (ix1 k))]
  rw [← sum_tile 16 8192 (fun R : Fin (16 * 8192) => ∑ l : Fin 128, f (ix1 (tile R l)))]
  refine Finset.sum_congr rfl fun t _ => ?_
  rw [sum_idx2]
  refine Finset.sum_congr rfl fun r _ => Finset.sum_congr rfl fun l _ => ?_
  refine congrArg f (congrArg ix1 (Fin.ext ?_))
  show (8192 * t.val + r.val) * 128 + l.val = 128 * (8192 * t.val + r.val) + l.val
  omega

end Cert.BceTiles

end
-- ==== Proof.Blocks.lean ====
/-
  What the two input windows hold at a grid point, as reads of the argument arrays.

  Before the kernel runs, each flat argument array is viewed as 131072 rows of 128 lanes; the view keeps row-major
  order, so row `R`, lane `l` is element `128 R + l`.  At grid point `t` each input window holds rows
  `8192 t … 8192 t + 8191`, so entry `(r, l)` of the block is element `(8192 t + r) · 128 + l` of the argument.
-/
import proofs.«160771_j46024869544057_1_alg».proof.Proof.Gen.KernelIdeal.Frame
import proofs.«160771_j46024869544057_1_alg».proof.Proof.TileIndex
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.BceTiles

variable {F : FTy → Type} [FloatOps F]
variable (m : (ℓ : Loc nD τ sig) → Buf (Elt F) ℓ)

/-- A grid point as a tile number below 16. -/
abbrev tileOf (t : Fin cfg0.N) : Fin 16 := ⟨t.val, lt_of_lt_of_eq t.isLt N_0⟩

/-- The kernel finds the first argument viewed as rows of lanes. -/
theorem rows0 (c : Dev nD) : (V m c main_v0 : Vec F S131072x128 .f32)
    = shapeCast S131072x128 (m ((c : Thread nD τ).loc main_arg0)) shapeCasts_S16777216_S131072x128 := by
  show StableHlo.after hostOps0 (fun b => m (c, b)) (Proc.devRef .tc main_v0) = _
  after_results
  rfl

/-- The kernel finds the second argument viewed as rows of lanes. -/
theorem rows1 (c : Dev nD) : (V m c main_v1 : Vec F S131072x128 .i32)
    = shapeCast S131072x128 (m ((c : Thread nD τ).loc main_arg1)) shapeCasts_S16777216_S131072x128 := by
  show StableHlo.after hostOps0 (fun b => m (c, b)) (Proc.devRef .tc main_v1) = _
  after_results
  rfl

/-- At point `t` the first input window's block starts at row block `t`, lane block 0. -/
theorem start0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The same for the second input window. -/
theorem start1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry `y` of the first input block at point `t` is element `flat t y` of the first argument. -/
theorem block0 (c : Dev nD) (t : Fin cfg0.N) (y : S8192x128.Idx) :
    (iblk m c 0 t : Vec F S8192x128 .f32) y = m ((c : Thread nD τ).loc main_arg0) (flat (tileOf t) y) := by
  unfold iblk
  rw [View.read_apply]
  show (V m c main_v0 : Vec F S131072x128 .f32) (((cfg0.win 0).blk t).view.emb y) = _
  rw [rows0]
  refine shapeCast_apply _ _ _ _ ?_
  refine (Shape.rowMajor_val_one (d := ![16777216]) (flat (tileOf t) y)).trans ?_
  refine Eq.trans ?_ (Shape.rowMajor_val_two (d := ![131072, 128]) (((cfg0.win 0).blk t).view.emb y)).symm
  show (8192 * t.val + (y 0).val) * 128 + (y 1).val
    = (win0_0.index t 0 * 8192 + 1 * (y 0).val) * 128 + (win0_0.index t 1 * 128 + 1 * (y 1).val)
  rw [(start0 t).1, (start0 t).2]
  omega

/-- Entry `y` of the second input block at point `t` is element `flat t y` of the second argument. -/
theorem block1 (c : Dev nD) (t : Fin cfg0.N) (y : S8192x128.Idx) :
    (iblk m c 1 t : Vec F S8192x128 .i32) y = m ((c : Thread nD τ).loc main_arg1) (flat (tileOf t) y) := by
  unfold iblk
  rw [View.read_apply]
  show (V m c main_v1 : Vec F S131072x128 .i32) (((cfg0.win 1).blk t).view.emb y) = _
  rw [rows1]
  refine shapeCast_apply _ _ _ _ ?_
  refine (Shape.rowMajor_val_one (d := ![16777216]) (flat (tileOf t) y)).trans ?_
  refine Eq.trans ?_ (Shape.rowMajor_val_two (d := ![131072, 128]) (((cfg0.win 1).blk t).view.emb y)).symm
  show (8192 * t.val + (y 0).val) * 128 + (y 1).val
    = (win0_1.index t 0 * 8192 + 1 * (y 0).val) * 128 + (win0_1.index t 1 * 128 + 1 * (y 1).val)
  rw [(start1 t).1, (start1 t).2]
  omega

end Cert.KernelIdeal.Blocks

end
-- ==== Proof.Accumulate.lean ====
/-
  The two accumulators after each grid point.

  The grid is visited in order.  The first point clears both accumulators and adds its tile's two sums; every later
  point adds its tile's two sums to what the point before left.  So after point `n` the first accumulator holds the
  sum of the loss sums of tiles `0 … n` and the second the sum of their hit counts: an induction on the point, using
  only that adding to zero changes nothing.
-/
import proofs.«160771_j46024869544057_1_alg».proof.Proof.Pieces
import proofs.«160771_j46024869544057_1_alg».proof.Proof.TileReduce
import proofs.«160771_j46024869544057_1_alg».proof.Proof.Blocks

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces

section Generic

variable {F : FTy → Type} [FloatOps F]
variable (m : (ℓ : Loc nD τ sig) → Buf (Elt F) ℓ)

/-- The pair of accumulator values after point `n`, as the updates applied in point order. -/
def chain (c : Dev nD) : (n : ℕ) → n < cfg0.N → Vec F S1x1 .f32 × Vec F S1x1 .f32
  | 0, h => (lossStep (iblk m c 0 ⟨0, h⟩) (iblk m c 1 ⟨0, h⟩) k0_pay2,
      hitStep (iblk m c 0 ⟨0, h⟩) (iblk m c 1 ⟨0, h⟩) k0_pay3)
  | n + 1, h => (lossStep (iblk m c 0 ⟨n + 1, h⟩) (iblk m c 1 ⟨n + 1, h⟩) (chain c n (Nat.lt_of_succ_lt h)).1,
      hitStep (iblk m c 0 ⟨n + 1, h⟩) (iblk m c 1 ⟨n + 1, h⟩) (chain c n (Nat.lt_of_succ_lt h)).2)

/-- The pair after the first point. -/
theorem chain_zero (c : Dev nD) (h : 0 < cfg0.N) :
    chain m c 0 h = (lossStep (iblk m c 0 ⟨0, h⟩) (iblk m c 1 ⟨0, h⟩) k0_pay2,
      hitStep (iblk m c 0 ⟨0, h⟩) (iblk m c 1 ⟨0, h⟩) k0_pay3) := rfl

/-- The pair after a later point, from the pair after the point before. -/
theorem chain_succ (c : Dev nD) (n : ℕ) (h : n + 1 < cfg0.N) :
    chain m c (n + 1) h
      = (lossStep (iblk m c 0 ⟨n + 1, h⟩) (iblk m c 1 ⟨n + 1, h⟩) (chain m c n (Nat.lt_of_succ_lt h)).1,
        hitStep (iblk m c 0 ⟨n + 1, h⟩) (iblk m c 1 ⟨n + 1, h⟩) (chain m c n (Nat.lt_of_succ_lt h)).2) := rfl

/-- What the accumulators' buffers hold after point `n` is that pair. -/
theorem outsAt_eq (c : Dev nD) : ∀ (n : ℕ) (h : n < cfg0.N), outsAt0 m c n h = chain m c n h
  | 0, h => (outsAt0_A m c ⟨0, h⟩ rfl).trans (congrArg₂ Prod.mk (first_loss ..) (first_hit ..))
  | n + 1, h => by
    have hN : cfg0.N = 16 := N_0
    have hB : ¬(⟨n + 1, h⟩ : Fin cfg0.N).val % 16 = 0 := by dsimp only; omega
    rw [outsAt0_B m c ⟨n + 1, h⟩ hB, later_loss, later_hit]
    show (lossStep _ _ (outsAt0 m c n _).1, hitStep _ _ (outsAt0 m c n _).2)
      = (lossStep _ _ (chain m c n _).1, hitStep _ _ (chain m c n _).2)
    rw [outsAt_eq c n]

end Generic

section AtIdeal

open Cert.BceLaws Cert.KernelIdeal.TileValue

variable (m : (ℓ : Loc nD τ sig) → Buf (Elt Ideal) ℓ)

/-- The loss sum of the tile at point `t`. -/
def tileLoss (c : Dev nD) (t : Fin cfg0.N) : EReal :=
  ∑ y : S8192x128.Idx, lossAt ((iblk m c 0 t : Vec Ideal S8192x128 .f32) y) ((iblk m c 1 t : Vec Ideal S8192x128 .i32) y)

/-- The hit count of the tile at point `t`. -/
def tileHit (c : Dev nD) (t : Fin cfg0.N) : EReal :=
  ∑ y : S8192x128.Idx, hitAt ((iblk m c 0 t : Vec Ideal S8192x128 .f32) y) ((iblk m c 1 t : Vec Ideal S8192x128 .i32) y)

/-- A function of the grid points as a function of all naturals, zero past the grid. -/
def past (g : Fin cfg0.N → EReal) (s : ℕ) : EReal := if h : s < cfg0.N then g ⟨s, h⟩ else 0

theorem past_of_lt (g : Fin cfg0.N → EReal) (s : ℕ) (h : s < cfg0.N) : past g s = g ⟨s, h⟩ := dif_pos h

/-- The zero both accumulators are cleared to. -/
theorem cleared2 (j : S1x1.Idx) : k0_pay2 (F := Ideal) j = 0 := Ideal.ofBits_zero_f32
theorem cleared3 (j : S1x1.Idx) : k0_pay3 (F := Ideal) j = 0 := Ideal.ofBits_zero_f32

/-- After point `n` the first accumulator holds the loss sums of tiles `0 … n`. -/
theorem chain_loss (c : Dev nD) : ∀ (n : ℕ) (h : n < cfg0.N) (j : S1x1.Idx),
    (chain m c n h).1 j = ∑ s ∈ Finset.range (n + 1), past (tileLoss m c) s
  | 0, h, j => by
    rewrite [chain_zero]
    dsimp only
    refine (lossStep_apply (iblk m c 0 ⟨0, h⟩) (iblk m c 1 ⟨0, h⟩) (k0_pay2 (F := Ideal)) j).trans ?_
    rewrite [cleared2, zero_add, Finset.sum_range_one, past_of_lt _ 0 h]
    rfl
  | n + 1, h, j => by
    rewrite [chain_succ]
    dsimp only
    refine (lossStep_apply (iblk m c 0 ⟨n + 1, h⟩) (iblk m c 1 ⟨n + 1, h⟩) (chain m c n (Nat.lt_of_succ_lt h)).1 j).trans ?_
    rewrite [chain_loss c n (Nat.lt_of_succ_lt h) j, Finset.sum_range_succ _ (n + 1), past_of_lt _ (n + 1) h]
    rfl

/-- After point `n` the second accumulator holds the hit counts of tiles `0 … n`. -/
theorem chain_hit (c : Dev nD) : ∀ (n : ℕ) (h : n < cfg0.N) (j : S1x1.Idx),
    (chain m c n h).2 j = ∑ s ∈ Finset.range (n + 1), past (tileHit m c) s
  | 0, h, j => by
    rewrite [chain_zero]
    dsimp only
    refine (hitStep_apply (iblk m c 0 ⟨0, h⟩) (iblk m c 1 ⟨0, h⟩) (k0_pay3 (F := Ideal)) j).trans ?_
    rewrite [cleared3, zero_add, Finset.sum_range_one, past_of_lt _ 0 h]
    rfl
  | n + 1, h, j => by
    rewrite [chain_succ]
    dsimp only
    refine (hitStep_apply (iblk m c 0 ⟨n + 1, h⟩) (iblk m c 1 ⟨n + 1, h⟩) (chain m c n (Nat.lt_of_succ_lt h)).2 j).trans ?_
    rewrite [chain_hit c n (Nat.lt_of_succ_lt h) j, Finset.sum_range_succ _ (n + 1), past_of_lt _ (n + 1) h]
    rfl

end AtIdeal

end Cert.KernelIdeal.Accum

end
-- ==== Proof.FinalArrays.lean ====
/-
  The two accumulator arrays after the kernel.

  Each accumulator's one-element array is written back once, after the last grid point, and that one block is the
  whole array; so after the kernel the two arrays hold the accumulators' values after the last point.
-/
import proofs.«160771_j46024869544057_1_alg».proof.Proof.Accumulate

set_option maxRecDepth 16384

noncomputable section

open Idealize.ShloMosaic Idealize.ShloMosaic.TcCoe Idealize.SL.Sem
open Idealize.ShloMosaic.Pipeline (Dat)

namespace Cert.KernelIdeal.FinalArrays

open Cert.KernelIdeal Cert.KernelIdeal.Gen Cert.KernelIdeal.Accum

section Generic

variable {F : FTy → Type} [FloatOps F]
variable (m : (ℓ : Loc nD τ sig) → Buf (Elt F) ℓ) (ρ : Dev nD → PrngReg)

/-- The last grid point is point 15. -/
theorem lastPt : 15 < cfg0.N := by rw [show cfg0.N = 16 from N_0]; decide

/-- The first accumulator's final value, as contents of its array. -/
abbrev lossArr (c : Dev nD) : Buf (Elt F) ((c : Thread nD τ).loc main_v2_0) := (chain m c 15 lastPt).1
/-- The second accumulator's final value, as contents of its array. -/
abbrev hitArr (c : Dev nD) : Buf (Elt F) ((c : Thread nD τ).loc main_v2_1) := (chain m c 15 lastPt).2

/-- The one write-back of the first accumulator, at the last point, writes its final value. -/
theorem flushed_loss (c : Dev nD) (t : Fin cfg0.N) (hf : (cfg0.win 2).flush t = true) :
    (dats m 0 c).flushed 2 t = ((cfg0.win 2).blk t).view.read (Elt F) (lossArr m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, outsAt_eq]
  have hz' : (fun a => win0_2.index t0_15 a * main_v2_0.ty.shape.size a) = fun _ => 0 :=
    funext fun a => by fin_cases a <;> decide
  exact (Memref.read_access_unit_zero (Elt F) main_v2_0 hz' (fun a => by rw [congrFun hz' a]; simp) (lossArr m c)).symm

/-- The one write-back of the second accumulator, at the last point, writes its final value. -/
theorem flushed_hit (c : Dev nD) (t : Fin cfg0.N) (hf : (cfg0.win 3).flush t = true) :
    (dats m 0 c).flushed 3 t = ((cfg0.win 3).blk t).view.read (Elt F) (hitArr m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3, outsAt_eq]
  have hz' : (fun a => win0_3.index t0_15 a * main_v2_1.ty.shape.size a) = fun _ => 0 :=
    funext fun a => by fin_cases a <;> decide
  exact (Memref.read_access_unit_zero (Elt F) main_v2_1 hz' (fun a => by rw [congrFun hz' a]; simp) (hitArr m c)).symm

/-- After the kernel the first accumulator's array holds its final value: the last point's block covers it. -/
theorem final_loss (c : Dev nD) : (dats m 0 c).arrAt 2 cfg0.N = lossArr m c :=
  (dats m 0 c).arrAt_eq_of_cover 2 (lossArr m c) (flushed_loss m c) fun i =>
    ⟨t0_15, (flush0_2 t0_15).mpr rfl, by
      show i ∈ ((View.whole main_v2_0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat)
          ∧ (i 0 : Nat) < win0_2.index t0_15 0 * win0_2.size 0 + win0_2.xsize (grid0.coords t0_15) 0
        rw [show win0_2.index t0_15 0 * win0_2.size 0 = 0 from by decide +kernel,
          show win0_2.xsize (grid0.coords t0_15) 0 = 1 from by decide +kernel]; omega
      | ⟨1, _⟩ =>
        show win0_2.index t0_15 1 * win0_2.size 1 ≤ (i 1 : Nat)
          ∧ (i 1 : Nat) < win0_2.index t0_15 1 * win0_2.size 1 + win0_2.xsize (grid0.coords t0_15) 1
        rw [show win0_2.index t0_15 1 * win0_2.size 1 = 0 from by decide +kernel,
          show win0_2.xsize (grid0.coords t0_15) 1 = 1 from by decide +kernel]; omega⟩

/-- After the kernel the second accumulator's array holds its final value. -/
theorem final_hit (c : Dev nD) : (dats m 0 c).arrAt 3 cfg0.N = hitArr m c :=
  (dats m 0 c).arrAt_eq_of_cover 3 (hitArr m c) (flushed_hit m c) fun i =>
    ⟨t0_15, (flush0_3 t0_15).mpr rfl, by
      show i ∈ ((View.whole main_v2_1).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_15 0 * win0_3.size 0 ≤ (i 0 : Nat)
          ∧ (i 0 : Nat) < win0_3.index t0_15 0 * win0_3.size 0 + win0_3.xsize (grid0.coords t0_15) 0
        rw [show win0_3.index t0_15 0 * win0_3.size 0 = 0 from by decide +kernel,
          show win0_3.xsize (grid0.coords t0_15) 0 = 1 from by decide +kernel]; omega
      | ⟨1, _⟩ =>
        show win0_3.index t0_15 1 * win0_3.size 1 ≤ (i 1 : Nat)
          ∧ (i 1 : Nat) < win0_3.index t0_15 1 * win0_3.size 1 + win0_3.xsize (grid0.coords t0_15) 1
        rw [show win0_3.index t0_15 1 * win0_3.size 1 = 0 from by decide +kernel,
          show win0_3.xsize (grid0.coords t0_15) 1 = 1 from by decide +kernel]; omega⟩

end Generic

end Cert.KernelIdeal.FinalArrays

end
-- ==== Proof.Spec.lean ====
/-
  The result both programs compute, as one function of the two argument arrays on the extended reals:

      (Σ_j loss_j / 2^24) · (1 + 0.1 · Σ_j hit_j)

  where `j` runs over all 16777216 elements, `loss_j` is the binary cross-entropy of element `j` and `hit_j` is 1
  when the probability is above one half and the label is zero.  The constants are kept as the binary words both
  programs write; the same word on both sides is never evaluated.
-/
import proofs.«160771_j46024869544057_1_alg».proof.Proof.ScalarLaws

noncomputable section

namespace Cert.BceLaws

open Idealize.ShloMosaic

/-- From the loss sum `L` and the hit count `H`: `(L / 2^24) · (1 + 0.1 · H)`, in the operations both programs use
    for it, at any reading of the floats. -/
def combine {F : FTy → Type} [FloatOps F] (L H : F .f32) : F .f32 :=
  FloatOps.mulf (FloatOps.hostDivf L (FloatOps.ofBits .f32 0x4B800000#32))
    (FloatOps.addf (FloatOps.ofBits .f32 0x3F800000#32) (FloatOps.mulf (FloatOps.ofBits .f32 0x3DCCCCCD#32) H))

/-- On the extended reals those operations are the quotient, the sum and the products. -/
theorem combine_ideal (L H : EReal) :
    combine (F := Ideal) L H = Ideal.div L (Ideal.ofBits .f32 0x4B800000#32)
      * (Ideal.ofBits .f32 0x3F800000#32 + Ideal.ofBits .f32 0x3DCCCCCD#32 * H) := rfl

/-- The mean loss times the hit multiplier. -/
def bce (X : (⟨1, ![16777216]⟩ : Shape).Idx → EReal) (Y : (⟨1, ![16777216]⟩ : Shape).Idx → BitVec 32) :
    (⟨0, ![]⟩ : Shape).Idx → EReal :=
  fun _ => combine (F := Ideal) (∑ j, lossAt (X j) (Y j)) (∑ j, hitAt (X j) (Y j))

theorem bce_apply (X : (⟨1, ![16777216]⟩ : Shape).Idx → EReal) (Y : (⟨1, ![16777216]⟩ : Shape).Idx → BitVec 32)
    (i : (⟨0, ![]⟩ : Shape).Idx) :
    bce X Y i = combine (F := Ideal) (∑ j, lossAt (X j) (Y j)) (∑ j, hitAt (X j) (Y j)) := rfl

theorem bce_apply' (X : (⟨1, ![16777216]⟩ : Shape).Idx → EReal) (Y : (⟨1, ![16777216]⟩ : Shape).Idx → BitVec 32)
    (i : (⟨0, ![]⟩ : Shape).Idx) :
    bce X Y i = Ideal.div (∑ j, lossAt (X j) (Y j)) (Ideal.ofBits .f32 0x4B800000#32)
      * (Ideal.ofBits .f32 0x3F800000#32 + Ideal.ofBits .f32 0x3DCCCCCD#32 * ∑ j, hitAt (X j) (Y j)) :=
  (bce_apply X Y i).trans (combine_ideal _ _)

end Cert.BceLaws

end
-- ==== Proof.Tail.lean ====
/-
  The kernel program's run with its result named.

  The lines after the kernel read each accumulator array as a scalar, divide the first by 2^24 and multiply by one
  plus a tenth of the second.  So every fair execution ends with the result buffer at that combination of the two
  accumulators' final values, and with the arguments unchanged.
-/
import proofs.«160771_j46024869544057_1_alg».proof.Proof.FinalArrays
import proofs.«160771_j46024869544057_1_alg».proof.Proof.Spec
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Accum Cert.KernelIdeal.FinalArrays Cert.BceLaws

variable {F : FTy → Type} [FloatOps F]
variable (m : (ℓ : Loc nD τ sig) → Buf (Elt F) ℓ) (ρ : Dev nD → PrngReg)

/-- The one entry of a one-element array, as the scalar view reads it. -/
abbrev only (i : S_.Idx) : S1x1.Idx := Shape.reshapeEquiv shapeCasts_S1x1_S_ i

/-- What the lines after the kernel compute from the two accumulators. -/
def out (c : Dev nD) : Buf (Elt F) ((c : Thread nD τ).loc main_v8) :=
  fun i => combine (lossArr m c (only i)) (hitArr m c (only i))

/-- The program's result buffer after the lines that follow the kernel. -/
theorem tail_eq (c : Dev nD) : Pipeline.afterTail₀ cfgs (dats m) 0 (V0 m) [hostOps1] c main_v8 = out m c := by
  unfold Pipeline.afterTail₀
  show StableHlo.after hostOps1 _ (Proc.devRef .tc main_v8) = _
  after_results
  have e2 : Pipeline.withArrays (cfgs 0).spec c (V0 m c) (fun w => (dats m 0 c).arrAt w (cfgs 0).N)
      (Proc.devRef .tc main_v2_0) = lossArr m c :=
    (Pipeline.withArrays_arr spec0 launch0.win.arr_inj c _ _ 2).trans (final_loss m c)
  have e3 : Pipeline.withArrays (cfgs 0).spec c (V0 m c) (fun w => (dats m 0 c).arrAt w (cfgs 0).N)
      (Proc.devRef .tc main_v2_1) = hitArr m c :=
    (Pipeline.withArrays_arr spec0 launch0.win.arr_inj c _ _ 3).trans (final_hit m c)
  rewrite [e2, e3]
  rfl

/-- Every fair execution of the kernel program ends with its result buffer at `out` and its arguments unchanged. -/
theorem run : θ_run defs (onTc (τ := τ) (main (F := F))) ⟨m, fun _ => 0, ρ⟩ fun r => ∀ c : Dev nD,
      r.2.mem ((c.tc : Thread nD τ).loc main_v8) = out m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.Sums.lean ====
/-
  The sixteen tile sums add up to the sum over all elements.

  The tile at grid point `t` holds the elements `flat t y`, so its loss sum is `Σ_y loss (flat t y)` and its hit count
  `Σ_y hit (flat t y)`; every element is one entry of one tile, so the sixteen sums together are the sums over all
  16777216 elements.
-/
import proofs.«160771_j46024869544057_1_alg».proof.Proof.Accumulate

set_option maxRecDepth 16384

noncomputable section

open Idealize.ShloMosaic Idealize.ShloMosaic.TcCoe Idealize.SL.Sem

namespace Cert.KernelIdeal.Sums

open Cert.KernelIdeal Cert.KernelIdeal.Gen Cert.KernelIdeal.Accum Cert.KernelIdeal.Blocks Cert.BceLaws Cert.BceTiles

variable (m : (ℓ : Loc nD τ sig) → Buf (Elt Ideal) ℓ)

/-- The first argument's contents on core `c`. -/
abbrev probs (c : Dev nD) : Flat.Idx → EReal := m ((c : Thread nD τ).loc main_arg0)
/-- The second argument's contents on core `c`. -/
abbrev labels (c : Dev nD) : Flat.Idx → BitVec 32 := m ((c : Thread nD τ).loc main_arg1)

/-- The loss sum of the tile at point `t`, over the arguments. -/
theorem tileLoss_eq (c : Dev nD) (t : Fin cfg0.N) :
    tileLoss m c t = ∑ y : Tile.Idx, lossAt (probs m c (flat (tileOf t) y)) (labels m c (flat (tileOf t) y)) := by
  unfold tileLoss
  exact Finset.sum_congr rfl fun y _ => congrArg₂ lossAt (block0 m c t y) (block1 m c t y)

/-- The hit count of the tile at point `t`, over the arguments. -/
theorem tileHit_eq (c : Dev nD) (t : Fin cfg0.N) :
    tileHit m c t = ∑ y : Tile.Idx, hitAt (probs m c (flat (tileOf t) y)) (labels m c (flat (tileOf t) y)) := by
  unfold tileHit
  exact Finset.sum_congr rfl fun y _ => congrArg₂ hitAt (block0 m c t y) (block1 m c t y)

/-- The sixteen loss sums together are the loss summed over all elements. -/
theorem loss_total (c : Dev nD) :
    ∑ s ∈ Finset.range 16, past (tileLoss m c) s = ∑ j, lossAt (probs m c j) (labels m c j) := by
  rewrite [Finset.sum_range, ← sum_tiles (fun j => lossAt (probs m c j) (labels m c j))]
  refine Finset.sum_congr rfl fun t _ => ?_
  have ht : t.val < cfg0.N := lt_of_lt_of_eq t.isLt N_0.symm
  rewrite [past_of_lt _ _ ht, tileLoss_eq]
  refine Finset.sum_congr rfl fun y _ => ?_
  rfl

/-- The sixteen hit counts together are the hits counted over all elements. -/
theorem hit_total (c : Dev nD) :
    ∑ s ∈ Finset.range 16, past (tileHit m c) s = ∑ j, hitAt (probs m c j) (labels m c j) := by
  rewrite [Finset.sum_range, ← sum_tiles (fun j => hitAt (probs m c j) (labels m c j))]
  refine Finset.sum_congr rfl fun t _ => ?_
  have ht : t.val < cfg0.N := lt_of_lt_of_eq t.isLt N_0.symm
  rewrite [past_of_lt _ _ ht, tileHit_eq]
  refine Finset.sum_congr rfl fun y _ => ?_
  rfl

end Cert.KernelIdeal.Sums

end
-- ==== Proof.OutValue.lean ====
/-
  On the extended reals the kernel program's result is `bce` of its two arguments.

  After the last grid point the first accumulator holds the sixteen tile loss sums added in order, which is the loss
  summed over all elements, and the second the hits counted over all elements; the lines after the kernel combine
  the two exactly as `bce` does.
-/
import proofs.«160771_j46024869544057_1_alg».proof.Proof.Tail
import proofs.«160771_j46024869544057_1_alg».proof.Proof.Sums

set_option maxRecDepth 16384

noncomputable section

open Idealize.ShloMosaic Idealize.ShloMosaic.TcCoe Idealize.SL.Sem

namespace Cert.KernelIdeal.OutValue

open Cert.KernelIdeal Cert.KernelIdeal.Gen Cert.KernelIdeal.Accum Cert.KernelIdeal.FinalArrays Cert.KernelIdeal.Tail
  Cert.KernelIdeal.Sums Cert.BceLaws

variable (m : (ℓ : Loc nD τ sig) → Buf (Elt Ideal) ℓ)

/-- The first accumulator ends at the loss summed over all elements. -/
theorem loss_last (c : Dev nD) (j : S1x1.Idx) :
    lossArr m c j = ∑ k, lossAt (probs m c k) (labels m c k) :=
  (chain_loss m c 15 lastPt j).trans (loss_total m c)

/-- The second accumulator ends at the hits counted over all elements. -/
theorem hit_last (c : Dev nD) (j : S1x1.Idx) :
    hitArr m c j = ∑ k, hitAt (probs m c k) (labels m c k) :=
  (chain_hit m c 15 lastPt j).trans (hit_total m c)

/-- The kernel program's result is `bce` of its arguments. -/
theorem out_eq (c : Dev nD) : out m c = bce (probs m c) (labels m c) := by
  funext i
  exact (congrArg₂ (combine (F := Ideal)) (loss_last m c (only i)) (hit_last m c (only i))).trans
    (bce_apply (probs m c) (labels m c) i).symm

end Cert.KernelIdeal.OutValue

end
-- ==== Proof.RefValue.lean ====
/-
  The reference computes `bce` of its two arguments.

  Read one operation at a time, the reference's result at its one index is the quotient of `0 + Σ_j (-(…))_j` by
  2^24, times `1 + 0.1 · (0 + Σ_j hit_j)`: its sums start from a zero that adds nothing, its negation is negation,
  and it reads the one-bit hit flag directly as an unsigned integer.
-/
import proofs.«160771_j46024869544057_1_alg».proof.Proof.Gen.ReferenceIdeal.Read
import proofs.«160771_j46024869544057_1_alg».proof.Proof.Spec

noncomputable section

open Idealize.ShloMosaic Idealize.ShloMosaic.TcCoe

namespace Cert.ReferenceIdeal.RefValue

open Cert.ReferenceIdeal Cert.ReferenceIdeal.Gen Cert.ReferenceIdeal.Read Cert.BceLaws

/-- A signed integer word converted to a float is, on the extended reals, that integer. -/
theorem sitofp_ideal {w : Nat} (b : BitVec w) : FloatOps.sitofp (F := Ideal) .f32 b = ((b.toInt : ℝ) : EReal) := rfl

/-- An unsigned integer word converted to a float is, on the extended reals, that natural number. -/
theorem uitofp_ideal {w : Nat} (b : BitVec w) : FloatOps.uitofp (F := Ideal) .f32 b = ((b.toNat : ℝ) : EReal) := rfl

/-- The vector the reference's first sum runs over is the loss, element by element. -/
theorem loss_elt (x0 : (⟨S16777216, .f32⟩ : BufTy).Contents (Elt Ideal)) (x1 : (⟨S16777216, .i32⟩ : BufTy).Contents (Elt Ideal))
    (j : S16777216.Idx) : val_main_v19 (F := Ideal) x0 x1 j = lossAt (x0 j) (x1 j) := by
  rw [val_main_v19_apply, val_main_v18_apply, val_main_v11_apply, val_main_v17_apply, val_main_v13_apply,
    val_main_v16_apply, val_main_v15_apply, val_main_v10_apply, val_main_v0_apply, val_main_v12_apply, val_main_v14_apply,
    val_main_cst_3_apply, val_main_cst_4_apply]
  simp only [Ideal.ofBits_def, Ideal.mulf_def, Ideal.addf_def, Ideal.subf_def, Ideal.hostNegf_def, Ideal.negf_def,
    Ideal.hostUnary_log_def, sitofp_ideal]
  rfl

/-- The vector the reference's second sum runs over is the hit, element by element. -/
theorem hit_elt (x0 : (⟨S16777216, .f32⟩ : BufTy).Contents (Elt Ideal)) (x1 : (⟨S16777216, .i32⟩ : BufTy).Contents (Elt Ideal))
    (j : S16777216.Idx) : val_main_v6 (F := Ideal) x0 x1 j = hitAt (x0 j) (x1 j) := by
  rw [val_main_v6_apply, val_main_v5_apply, val_main_v2_apply, val_main_v4_apply, val_main_v1_apply, val_main_v3_apply,
    val_main_cst_apply, val_main_c_apply]
  simp only [Ideal.ofBits_def, Ideal.cmpf_def, uitofp_ideal]
  rfl

/-- The reference's result is `bce` of its arguments. -/
theorem result_eq (x0 : (⟨S16777216, .f32⟩ : BufTy).Contents (Elt Ideal)) (x1 : (⟨S16777216, .i32⟩ : BufTy).Contents (Elt Ideal)) :
    val_main_v22 (F := Ideal) x0 x1 = bce x0 x1 := by
  funext i
  rw [val_main_v22_apply, val_main_v21_apply, val_main_v20_apply, val_main_v9_apply, val_main_v8_apply, val_main_v7_apply,
    val_main_cst_5_apply, val_main_cst_0_apply, val_main_cst_6_apply, val_main_cst_1_apply, val_main_cst_2_apply]
  simp only [loss_elt, hit_elt, Ideal.ofBits_def, Ideal.mulf_def, Ideal.addf_def, Ideal.hostDivf_def,
    Ideal.ofBits_zero_f32, zero_add]
  exact (bce_apply' x0 x1 i).symm

end Cert.ReferenceIdeal.RefValue

end
-- ==== Proof.lean ====
/-
  The kernel and the reference compute the same number on the extended reals.

  Both programs take 16777216 probabilities `a_j` and integer labels `b_j`.  With `t_j` the label as a real number,
  `loss_j = -(t_j · log a_j + (1 - t_j) · log (1 - a_j))` and `hit_j = 1` when `a_j > 1/2` and `b_j = 0`, else `0`,
  both return

      (Σ_j loss_j / 2^24) · (1 + 0.1 · Σ_j hit_j).

  The reference sums over all elements at once.  The kernel views the elements as 131072 rows of 128 lanes, visits
  them in 16 tiles of 8192 rows, and keeps two one-element accumulators: the first grid point clears them and adds its
  tile's loss sum and hit count, every later point adds its own, and after the last point the two accumulators are
  written out, read as scalars, and combined as above.  Each element lies in exactly one tile, and addition on the
  extended reals is commutative and associative at the infinities too, so the sixteen partial sums added in order
  are the whole sums; no finiteness of the inputs is used.  The kernel negates by subtracting from zero and widens
  the one-bit hit flag before converting it; both agree with the reference's spelling at every extended real.

  The three programs' runs, termination and unchanged arguments are the generated frame runs; the ideal pass rewrote
  nothing, so the kernel's idealization is the kernel's own text.
-/
import proofs.«160771_j46024869544057_1_alg».proof.Defs
import proofs.«160771_j46024869544057_1_alg».proof.Proof.Gen.Kernel
import proofs.«160771_j46024869544057_1_alg».proof.Proof.Gen.Kernel.Skeleton
import proofs.«160771_j46024869544057_1_alg».proof.Proof.Gen.Kernel.Launch
import proofs.«160771_j46024869544057_1_alg».proof.Proof.Gen.Kernel.Points
import proofs.«160771_j46024869544057_1_alg».proof.Proof.Gen.Kernel.Frame
import proofs.«160771_j46024869544057_1_alg».proof.Proof.Gen.KernelIdeal
import proofs.«160771_j46024869544057_1_alg».proof.Proof.Gen.KernelIdeal.Skeleton
import proofs.«160771_j46024869544057_1_alg».proof.Proof.Gen.KernelIdeal.Launch
import proofs.«160771_j46024869544057_1_alg».proof.Proof.Gen.KernelIdeal.Points
import proofs.«160771_j46024869544057_1_alg».proof.Proof.Gen.KernelIdeal.Frame
import proofs.«160771_j46024869544057_1_alg».proof.Proof.Gen.ReferenceIdeal
import proofs.«160771_j46024869544057_1_alg».proof.Proof.Gen.Pre_finite_inputs
import proofs.«160771_j46024869544057_1_alg».proof.Proof.Gen.ReferenceIdeal.Run
import proofs.«160771_j46024869544057_1_alg».proof.Proof.Gen.ReferenceIdeal.Read
import proofs.«160771_j46024869544057_1_alg».proof.Proof.OutValue
import proofs.«160771_j46024869544057_1_alg».proof.Proof.RefValue
import Idealize.ShloMosaic.Adequacy
import Idealize.ShloMosaic.Init

noncomputable section

namespace Cert.Proof

open Idealize.ShloMosaic Idealize.SL.Sem Cert.Kernel

/-- The word-level kernel runs, terminates and leaves its arguments unchanged. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- So does the reference: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the arguments both idealized programs end with `bce` of the arguments. -/
theorem algebraic : Cert.algebraic_KernelIdeal_ReferenceIdeal := by
  intro m ρ m' ρ' _ hagree
  refine ⟨fun c => Cert.BceLaws.bce (Cert.KernelIdeal.Sums.probs m c) (Cert.KernelIdeal.Sums.labels m c), ?_, ?_⟩
  · exact (θ_run Cert.KernelIdeal.defs _ _).mono
      (fun _ h c => ⟨(h c).1.trans (Cert.KernelIdeal.OutValue.out_eq m c), (h c).2⟩)
      (Cert.KernelIdeal.Tail.run (F := Ideal) m ρ)
  · refine (θ_run Cert.ReferenceIdeal.defs _ _).mono (fun _ h c => ⟨?_, (h c).2⟩)
      (Cert.ReferenceIdeal.Value.run (F := Ideal) m' ρ')
    refine (h c).1.trans ((Cert.ReferenceIdeal.Read.val_main_v22_eq _ _).trans
      ((Cert.ReferenceIdeal.RefValue.result_eq _ _).trans ?_))
    exact congrArg₂ Cert.BceLaws.bce (hagree c).1 (hagree c).2

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
